-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S8 : Shape := ⟨1, ![8]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn {F : FTy → Type} [FloatOps F] (main_arg0 : FVec F S32768x1024 .f32) (main_arg1 : IVec S8 32) (main_arg2 : FVec F S8x1024x4096 .f32) (main_arg3 : FVec F S8x4096x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S8x1024x4096 .f32 := Host.absf main_arg2
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096x1024 .f32 := Host.absf main_arg3
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  main_v13
-- ==== Kernel.lean ====
abbrev S32768x1024 : Shape := ⟨2, ![32768, 1024]⟩
abbrev S8 : Shape := ⟨1, ![8]⟩
abbrev S8x1024x4096 : Shape := ⟨3, ![8, 1024, 4096]⟩
abbrev S8x4096x1024 : Shape := ⟨3, ![8, 4096, 1024]⟩
abbrev S1x1024x1024 : Shape := ⟨3, ![1, 1024, 1024]⟩
abbrev S1x1024x512 : Shape := ⟨3, ![1, 1024, 512]⟩
abbrev S1x512x1024 : Shape := ⟨3, ![1, 512, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 7
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S8, .i32⟩
  | .hbm, ⟨2, _⟩ => ⟨S8x1024x4096, .f32⟩
  | .hbm, ⟨3, _⟩ => ⟨S8x4096x1024, .f32⟩
  | .hbm, ⟨4, _⟩ => ⟨S8x4096x1024, .f32⟩
  | .hbm, ⟨5, _⟩ => ⟨S8x4096x1024, .f32⟩
  | .hbm, ⟨6, _⟩ => ⟨S32768x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x512x1024, .f32⟩
  | .local _ .vmem, ⟨5, _⟩ => ⟨S1x512x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_15 : BitVec 32 := 0#32
  let v24 : BitVec 1 := Scalar.cmpi .ne v23 c0_i32_15
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S32768x1024_S8x4096x1024 : S32768x1024.ShapeCasts S8x4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S1024x1024_S1x1024x1024 : S1024x1024.ShapeCasts S1x1024x1024
  shapeCasts_S8x4096x1024_S32768x1024 : S8x4096x1024.ShapeCasts S32768x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x4096.size a
  hwx0_1 : ∀ i : grid0.Coords, EltTy.bits .f32 = 32 ∨ (Rect.block (s := S8x1024x4096) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x4096x1024.size a
  hwx0_2 : ∀ i : grid0.Coords, EltTy.bits .f32 = 32 ∨ (Rect.block (s := S8x4096x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x4096x1024.size a
  hwx0_3 : ∀ i : grid0.Coords, EltTy.bits .f32 = 32 ∨ (Rect.block (s := S8x4096x1024) S1x1024x1024.size (cc0_transform_3 i) (hinb0_3 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x1024 : Shape := ⟨2, ![32768, 1024]⟩
abbrev S8 : Shape := ⟨1, ![8]⟩
abbrev S8x1024x4096 : Shape := ⟨3, ![8, 1024, 4096]⟩
abbrev S8x4096x1024 : Shape := ⟨3, ![8, 4096, 1024]⟩
abbrev S8x4096x4096 : Shape := ⟨3, ![8, 4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8, .i32⟩
  | .hbm, ⟨2, _⟩ => ⟨S8x1024x4096, .f32⟩
  | .hbm, ⟨3, _⟩ => ⟨S8x4096x1024, .f32⟩
  | .hbm, ⟨4, _⟩ => ⟨S8x4096x1024, .f32⟩
  | .hbm, ⟨5, _⟩ => ⟨S8x4096x4096, .f32⟩
  | .hbm, ⟨6, _⟩ => ⟨S_, .f32⟩
  | .hbm, ⟨7, _⟩ => ⟨S8x4096x4096, .f32⟩
  | .hbm, ⟨8, _⟩ => ⟨S8x4096x4096, .f32⟩
  | .hbm, ⟨9, _⟩ => ⟨S8x4096x1024, .f32⟩
  | .hbm, ⟨10, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  shapeCasts_S32768x1024_S8x4096x1024 : S32768x1024.ShapeCasts S8x4096x1024
  bcast_S_S8x4096x4096 : S_.BroadcastsInDim S8x4096x4096 (![] : Fin 0 → Fin S8x4096x4096.rank)
  shapeCasts_S8x4096x1024_S32768x1024 : S8x4096x1024.ShapeCasts S32768x1024
  dot_S8x4096x1024_S8x1024x4096_S8x4096x4096_2_1_1_2_0_0_wf : DotDims.WF S8x4096x1024 S8x1024x4096 S8x4096x4096 [2] [1] [1] [2] [0] [0]
  dot_S8x4096x4096_S8x4096x1024_S8x4096x1024_2_1_1_2_0_0_wf : DotDims.WF S8x4096x4096 S8x4096x1024 S8x4096x1024 [2] [1] [1] [2] [0] [0]

variable [Facts₀]

def dot_S8x4096x1024_S8x1024x4096_S8x4096x4096_2_1_1_2_0_0 : DotDims S8x4096x1024 S8x1024x4096 S8x4096x4096 where
  lhsContracting := [2]
  rhsContracting := [1]
  lhsNonContracting := [1]
  rhsNonContracting := [2]
  lhsBatch := [0]
  rhsBatch := [0]
  wf := dot_S8x4096x1024_S8x1024x4096_S8x4096x4096_2_1_1_2_0_0_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf

class Facts : Prop extends Facts₀ where

variable [Facts]
-- ==== Proof.LibSumSplit.lean ====
import Mathlib.Algebra.BigOperators.Fin
import Mathlib.Data.Fintype.BigOperators
import Mathlib.Logic.Equiv.Fin.Basic

/-!
# Sums over an index range cut into equal blocks

For any additive commutative monoid:

* `SumSplit.sum_blocks`: a sum over `Fin (n * b)` is the sum over the `n` blocks of the sums over the `b` positions
  inside a block, the position `s` of block `kk` being the index `b * kk + s`; `SumSplit.sum_4096` is the case
  `4096 = 8 * 512`.
* `SumSplit.nest8`: eight terms added one after the other onto zero are the sum over `Fin 8`.
* `SumSplit.accUpTo` adds the first `n` terms of a sequence one after the other onto zero, and
  `SumSplit.accUpTo_eq_sum` says that this is the sum over `Fin n`.
-/

open scoped BigOperators

namespace SumSplit

variable {M : Type*} [AddCommMonoid M]

/-- Position `s` of block `kk`, of `n` blocks of `b` positions each, lies below `n * b`. -/
theorem blk_lt {n b : ℕ} (kk : Fin n) (s : Fin b) : b * kk.val + s.val < n * b :=
  calc b * kk.val + s.val < b * kk.val + b := Nat.add_lt_add_left s.isLt _
    _ = b * (kk.val + 1) := (Nat.mul_succ b kk.val).symm
    _ ≤ b * n := Nat.mul_le_mul_left b kk.isLt
    _ = n * b := Nat.mul_comm b n

/-- A sum over `n * b` indices is the sum, over the `n` blocks, of the sums over the `b` positions of a block: the pair
    (block, position) runs over the indices once each, as `b * block + position`. -/
theorem sum_blocks (n b : ℕ) (g : Fin (n * b) → M) :
    ∑ s : Fin (n * b), g s = ∑ kk : Fin n, ∑ s : Fin b, g ⟨b * kk.val + s.val, blk_lt kk s⟩ := by
  rw [← Equiv.sum_comp finProdFinEquiv g, Fintype.sum_prod_type]
  refine Finset.sum_congr rfl fun kk _ => Finset.sum_congr rfl fun s _ => ?_
  refine congrArg g (Fin.ext ?_)
  show s.val + b * kk.val = b * kk.val + s.val
  exact Nat.add_comm _ _

/-- 4096 indices are 8 blocks of 512. -/
theorem sum_4096 (g : Fin 4096 → M) :
    ∑ s : Fin 4096, g s
      = ∑ kk : Fin 8, ∑ s : Fin 512, g ⟨512 * kk.val + s.val, by have := kk.isLt; have := s.isLt; omega⟩ :=
  sum_blocks 8 512 g

/-- Eight terms added one after the other onto zero are their sum. -/
theorem nest8 (c : Fin 8 → M) :
    ((((((((0 + c 0) + c 1) + c 2) + c 3) + c 4) + c 5) + c 6) + c 7) = ∑ kk : Fin 8, c kk := by
  rw [Fin.sum_univ_eight, zero_add]

/-- The first `n` terms of a sequence added one after the other onto zero. -/
def accUpTo (c : ℕ → M) : ℕ → M
  | 0 => 0
  | k + 1 => accUpTo c k + c k

/-- Adding the first `n` terms one after the other gives their sum. -/
theorem accUpTo_eq_sum (c : ℕ → M) (n : ℕ) : accUpTo c n = ∑ kk : Fin n, c kk.val := by
  induction n with
  | zero => rfl
  | succ k ih =>
    rw [Fin.sum_univ_castSucc]
    show accUpTo c k + c k = ∑ kk : Fin k, c kk.val + c k
    rw [ih]

end SumSplit
-- ==== Proof.Spec.lean ====
/-
  The mathematics of the expert MLP, on the extended reals.

  There are 8 experts; expert `e` owns 4096 tokens (rows of `x`, 1024 features each), a first weight matrix
  `w1 e` (1024 × 4096) and a second one `w2 e` (4096 × 1024). The hidden activation of token `c` at hidden
  unit `f` is `max (∑ k, x e c k * w1 e k f) 0`, and the output at feature `d` is the sum over all 4096 hidden units
  of the activation times `w2 e f d` (`mlp`).

  The 4096 hidden units are 8 tiles of 512. Tile `fi` contributes `tile … fi`, the part of that sum over the
  units `512 * fi + s`. Adding the eight contributions one after the other onto zero gives the whole sum
  (`acc_eight`): only commutativity and associativity of addition are used, which hold on the extended reals
  whatever the terms are, so nothing here needs the inputs to be finite.
-/
import Idealize.ShloMosaic.PureOps.Ideal
import Idealize.ShloMosaic.Lib.ValueIdx
import proofs.«180892_j5566277615660_2_alg».proof.Proof.LibSumSplit

noncomputable section

open scoped BigOperators

namespace ExpertMlp

open Idealize.ShloMosaic Idealize.ShloMosaic.ValueIdx

/-- The tokens of all experts: expert, token, feature. -/
abbrev TX : Shape := ⟨3, ![8, 4096, 1024]⟩
/-- The first weight matrices: expert, feature, hidden unit. -/
abbrev TW1 : Shape := ⟨3, ![8, 1024, 4096]⟩
/-- The second weight matrices: expert, hidden unit, feature. -/
abbrev TW2 : Shape := ⟨3, ![8, 4096, 1024]⟩

/-- The hidden activation of token `c` of expert `e` at hidden unit `f`: the token's row against column `f` of the
    expert's first weight matrix, negative values replaced by zero. -/
def hid (x : TX.Idx → EReal) (w1 : TW1.Idx → EReal) (e : Fin 8) (c : Fin 4096) (f : Fin 4096) : EReal :=
  max (∑ k : Fin 1024, x (ix3 e c k) * w1 (ix3 e k f)) 0

/-- The MLP's output: at (expert, token, feature) the sum over the hidden units of the activation times the second
    weight. -/
def mlp (x : TX.Idx → EReal) (w1 : TW1.Idx → EReal) (w2 : TW2.Idx → EReal) : TX.Idx → EReal :=
  fun i => ∑ f : Fin 4096, hid x w1 (i 0) (i 1) f * w2 (ix3 (i 0) f (i 2))

/-- Hidden unit `s` of tile `fi` (for `fi < 8` this is `512 * fi + s`). -/
def unit (fi : ℕ) (s : Fin 512) : Fin 4096 := ⟨(512 * fi + s.val) % 4096, Nat.mod_lt _ (by norm_num)⟩

theorem unit_val (fi : ℕ) (hfi : fi < 8) (s : Fin 512) : (unit fi s).val = 512 * fi + s.val :=
  Nat.mod_eq_of_lt (by have := s.isLt; omega)

/-- What the 512 hidden units of tile `fi` contribute to the output at (e, c, d). -/
def tile (x : TX.Idx → EReal) (w1 : TW1.Idx → EReal) (w2 : TW2.Idx → EReal) (e : Fin 8) (c : Fin 4096) (d : Fin 1024)
    (fi : ℕ) : EReal :=
  ∑ s : Fin 512, hid x w1 e c (unit fi s) * w2 (ix3 e (unit fi s) d)

/-- The eight tiles' contributions added one after the other onto zero are the MLP's output. -/
theorem acc_eight (x : TX.Idx → EReal) (w1 : TW1.Idx → EReal) (w2 : TW2.Idx → EReal) (e : Fin 8) (c : Fin 4096)
    (d : Fin 1024) : SumSplit.accUpTo (tile x w1 w2 e c d) 8 = mlp x w1 w2 (ix3 e c d) := by
  rw [SumSplit.accUpTo_eq_sum,
    show mlp x w1 w2 (ix3 e c d) = ∑ f : Fin 4096, hid x w1 e c f * w2 (ix3 e f d) from rfl, SumSplit.sum_4096]
  refine Finset.sum_congr rfl fun kk _ => ?_
  unfold tile
  refine Finset.sum_congr rfl fun s _ => ?_
  have h : unit kk.val s = ⟨512 * kk.val + s.val, by have := kk.isLt; have := s.isLt; omega⟩ :=
    Fin.ext (unit_val kk.val kk.isLt s)
  rw [h]

end ExpertMlp

end
-- ==== Proof.RefSide.lean ====
/-
  The reference program's result, read index by index.

  The reference reshapes the tokens to (expert, token, feature), multiplies each expert's tokens by its first weight
  matrix (a batched product contracting the feature axis), replaces negative entries by zero, multiplies by the
  second weight matrix (contracting the hidden axis), and reshapes back. At (e, c, d) the value before the last
  reshape is therefore the sum over the hidden units f of max (∑ k, x e c k * w1 e k f) 0 * w2 e f d: the function
  `ExpertMlp.mlp` of the reshaped tokens and the two weight arrays.
-/
import proofs.«180892_j5566277615660_2_alg».proof.Defs
import proofs.«180892_j5566277615660_2_alg».proof.Proof.Gen.ReferenceIdeal.Run
import proofs.«180892_j5566277615660_2_alg».proof.Proof.Gen.ReferenceIdeal.Read
import proofs.«180892_j5566277615660_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The first product's left operand at hidden unit `f`, contraction position `k`: the token's feature `k`. -/
theorem left1 (i : S8x4096x1024.Idx) (f : Fin 4096) (k : Fin 1024) :
    lidx_main_v1 (lidx_main_v3 i f) k = ix3 (i 0) (i 1) k :=
  funext fun a => Fin.ext (by match a with | ⟨0, _⟩ => rfl | ⟨1, _⟩ => rfl | ⟨2, _⟩ => rfl)

/-- The first product's right operand there: the expert's first weight at (k, f). -/
theorem right1 (i : S8x4096x1024.Idx) (f : Fin 4096) (k : Fin 1024) :
    ridx_main_v1 (lidx_main_v3 i f) k = ix3 (i 0) k f :=
  funext fun a => Fin.ext (by match a with | ⟨0, _⟩ => rfl | ⟨1, _⟩ => rfl | ⟨2, _⟩ => rfl)

/-- The second product's right operand at hidden unit `f`: the expert's second weight at (f, d). -/
theorem right3 (i : S8x4096x1024.Idx) (f : Fin 4096) : ridx_main_v3 i f = ix3 (i 0) f (i 2) :=
  funext fun a => Fin.ext (by match a with | ⟨0, _⟩ => rfl | ⟨1, _⟩ => rfl | ⟨2, _⟩ => rfl)

/-- The value before the last reshape is the MLP of the reshaped tokens. -/
theorem stage3_eq (x0 : (⟨S32768x1024, .f32⟩ : BufTy).Contents (Elt Ideal))
    (x2 : (⟨S8x1024x4096, .f32⟩ : BufTy).Contents (Elt Ideal)) (x3 : (⟨S8x4096x1024, .f32⟩ : BufTy).Contents (Elt Ideal)) :
    val_main_v3 (F := Ideal) x0 x2 x3 = ExpertMlp.mlp (val_main_v0 (F := Ideal) x0) x2 x3 := by
  funext i
  rw [val_main_v3_apply]
  unfold ExpertMlp.mlp
  refine Finset.sum_congr rfl fun f _ => ?_
  rw [val_main_v2_apply, val_main_v1_apply, val_main_call0_v0_apply, val_main_call0_cst_apply, right3]
  unfold ExpertMlp.hid
  simp only [left1, right1, Ideal.maximumf_def, Ideal.ofBits_def, Ideal.ofBits_zero_f32]
  rfl

/-- The reference's result: the tokens reshaped, the MLP, and the reshape back. -/
theorem result_eq (x0 : (⟨S32768x1024, .f32⟩ : BufTy).Contents (Elt Ideal))
    (x2 : (⟨S8x1024x4096, .f32⟩ : BufTy).Contents (Elt Ideal)) (x3 : (⟨S8x4096x1024, .f32⟩ : BufTy).Contents (Elt Ideal)) :
    val_main_v4 (F := Ideal) x0 x2 x3
      = shapeCast S32768x1024
          (ExpertMlp.mlp (shapeCast S8x4096x1024 x0 shapeCasts_S32768x1024_S8x4096x1024) x2 x3)
          shapeCasts_S8x4096x1024_S32768x1024 := by
  unfold val_main_v4
  rw [stage3_eq]
  rfl

end Cert.ReferenceIdeal.RefValue

end
-- ==== Proof.Blocks.lean ====
/-
  Where the blocks of a grid point sit in the arrays.

  The grid has 8 × 4 × 8 points, numbered row-major: point `n` works for expert `n / 32`, on the token block
  `n / 8 % 4` (1024 tokens) and on the hidden tile `n % 8` (512 units). Its token block reads the reshaped tokens
  at rows `1024 * (n / 8 % 4) + p` of the expert; its first-weight block reads the columns `512 * (n % 8) + s`; its
  second-weight block reads the rows `512 * (n % 8) + s`. The array the token window reads is the argument
  reshaped to (expert, token, feature) by the one host operation before the region.
-/
import proofs.«180892_j5566277615660_2_alg».proof.Proof.Gen.KernelIdeal.Frame
import proofs.«180892_j5566277615660_2_alg».proof.Proof.Spec
import Idealize.ShloMosaic.Lib.Pipeline.Value
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The expert point `n` works for. -/
def expertOf (n : ℕ) : Fin 8 := ⟨n / 32 % 8, Nat.mod_lt _ (by norm_num)⟩
/-- Token `p` of the token block of point `n`, among the expert's 4096 tokens. -/
def tokenOf (n : ℕ) (p : Fin 1024) : Fin 4096 := ⟨1024 * (n / 8 % 4) + p.val, by have := p.isLt; omega⟩

/-- The block indices of the three input windows and of the output window at every grid point. -/
theorem index0 : ∀ t : Fin cfg0.N, win0_0.index t 0 = t.val / 32 % 8 ∧ win0_0.index t 1 = t.val / 8 % 4 ∧ win0_0.index t 2 = 0 :=
  (by decide +kernel : ∀ t : Fin grid0.N, win0_0.index t 0 = t.val / 32 % 8 ∧ win0_0.index t 1 = t.val / 8 % 4 ∧ win0_0.index t 2 = 0)
theorem index1 : ∀ t : Fin cfg0.N, win0_1.index t 0 = t.val / 32 % 8 ∧ win0_1.index t 1 = 0 ∧ win0_1.index t 2 = t.val % 8 :=
  (by decide +kernel : ∀ t : Fin grid0.N, win0_1.index t 0 = t.val / 32 % 8 ∧ win0_1.index t 1 = 0 ∧ win0_1.index t 2 = t.val % 8)
theorem index2 : ∀ t : Fin cfg0.N, win0_2.index t 0 = t.val / 32 % 8 ∧ win0_2.index t 1 = t.val % 8 ∧ win0_2.index t 2 = 0 :=
  (by decide +kernel : ∀ t : Fin grid0.N, win0_2.index t 0 = t.val / 32 % 8 ∧ win0_2.index t 1 = t.val % 8 ∧ win0_2.index t 2 = 0)
theorem index3 : ∀ t : Fin cfg0.N, win0_3.index t 0 = t.val / 32 % 8 ∧ win0_3.index t 1 = t.val / 8 % 4 ∧ win0_3.index t 2 = 0 :=
  (by decide +kernel : ∀ t : Fin grid0.N, win0_3.index t 0 = t.val / 32 % 8 ∧ win0_3.index t 1 = t.val / 8 % 4 ∧ win0_3.index t 2 = 0)

/-- The token block of point `t` at (p, k): token `tokenOf t p` of the expert, feature `k`. -/
theorem tokens_at (c : Dev nD) (t : Fin cfg0.N) (p k : Fin 1024) :
    (iblk m c 0 t : Vec F S1x1024x1024 .f32) (ix3 (0 : Fin 1) p k)
      = (V m c main_v0 : S8x4096x1024.Idx → F .f32) (ix3 (expertOf t.val) (tokenOf t.val p) k) := by
  unfold iblk
  rw [View.read_apply]
  show V m c main_v0 _ = V m c main_v0 _
  refine congrArg (V m c main_v0) (funext fun a => Fin.ext ?_)
  match a with
  | ⟨0, _⟩ => show win0_0.index t 0 * 1 + 1 * 0 = t.val / 32 % 8; rw [(index0 t).1]; omega
  | ⟨1, _⟩ => show win0_0.index t 1 * 1024 + 1 * p.val = 1024 * (t.val / 8 % 4) + p.val; rw [(index0 t).2.1]; omega
  | ⟨2, _⟩ => show win0_0.index t 2 * 1024 + 1 * k.val = k.val; rw [(index0 t).2.2]; omega

/-- The first-weight block of point `t` at (k, s): row `k`, hidden unit `s` of the point's tile, of the expert's matrix. -/
theorem w1_at (c : Dev nD) (t : Fin cfg0.N) (k : Fin 1024) (s : Fin 512) :
    (iblk m c 1 t : Vec F S1x1024x512 .f32) (ix3 (0 : Fin 1) k s)
      = (V m c main_arg2 : S8x1024x4096.Idx → F .f32) (ix3 (expertOf t.val) k (ExpertMlp.unit (t.val % 8) s)) := by
  unfold iblk
  rw [View.read_apply]
  show V m c main_arg2 _ = V m c main_arg2 _
  refine congrArg (V m c main_arg2) (funext fun a => Fin.ext ?_)
  have hu := ExpertMlp.unit_val (t.val % 8) (Nat.mod_lt _ (by norm_num)) s
  match a with
  | ⟨0, _⟩ => show win0_1.index t 0 * 1 + 1 * 0 = t.val / 32 % 8; rw [(index1 t).1]; omega
  | ⟨1, _⟩ => show win0_1.index t 1 * 1024 + 1 * k.val = k.val; rw [(index1 t).2.1]; omega
  | ⟨2, _⟩ => show win0_1.index t 2 * 512 + 1 * s.val = (ExpertMlp.unit (t.val % 8) s).val; rw [(index1 t).2.2, hu]; omega

/-- The second-weight block of point `t` at (s, q): hidden unit `s` of the point's tile, feature `q`. -/
theorem w2_at (c : Dev nD) (t : Fin cfg0.N) (s : Fin 512) (q : Fin 1024) :
    (iblk m c 2 t : Vec F S1x512x1024 .f32) (ix3 (0 : Fin 1) s q)
      = (V m c main_arg3 : S8x4096x1024.Idx → F .f32) (ix3 (expertOf t.val) (ExpertMlp.unit (t.val % 8) s) q) := by
  unfold iblk
  rw [View.read_apply]
  show V m c main_arg3 _ = V m c main_arg3 _
  refine congrArg (V m c main_arg3) (funext fun a => Fin.ext ?_)
  have hu := ExpertMlp.unit_val (t.val % 8) (Nat.mod_lt _ (by norm_num)) s
  match a with
  | ⟨0, _⟩ => show win0_2.index t 0 * 1 + 1 * 0 = t.val / 32 % 8; rw [(index2 t).1]; omega
  | ⟨1, _⟩ => show win0_2.index t 1 * 512 + 1 * s.val = (ExpertMlp.unit (t.val % 8) s).val; rw [(index2 t).2.1, hu]; omega
  | ⟨2, _⟩ => show win0_2.index t 2 * 1024 + 1 * q.val = q.val; rw [(index2 t).2.2]; omega

/-- The array the token window reads: the tokens reshaped to (expert, token, feature). -/
theorem tokens_array (c : Dev nD) :
    (V m c main_v0 : S8x4096x1024.Idx → F .f32)
      = shapeCast S8x4096x1024 (m ((c : Thread nD τ).loc main_arg0)) shapeCasts_S32768x1024_S8x4096x1024 := by
  show StableHlo.after hostOps0 (fun b => m (c, b)) (Proc.devRef .tc main_v0) = _
  after_results
  rfl

end Cert.KernelIdeal.Blocks

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.Payload.lean ====
/-
  What one run of the kernel body computes, entry by entry, on the extended reals.

  The body holds a block of 1024 tokens (`xb`, 1024 features each), a 1024 × 512 tile of the first weight matrix
  (`w1b`), a 512 × 1024 tile of the second (`w2b`) and the accumulator `acc` (1024 × 1024). It leaves in the
  accumulator, at (p, q),

      acc p q + ∑ s, max (∑ k, xb p k * w1b k s) 0 * w2b s q

  (`step_apply`): the changes of float format in between are the identity on the extended reals, and each matrix
  product into a zero accumulator is the plain sum of products. The block it stores first at the start of a
  sweep is zero everywhere (`zeros_apply`), and what it copies out at the end of a sweep is the accumulator with a
  leading unit axis (`emit_apply`).
-/
import proofs.«180892_j5566277615660_2_alg».proof.Proof.Gen.KernelIdeal.Skeleton
import proofs.«180892_j5566277615660_2_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-- The block stored when a sweep over the hidden tiles starts is zero everywhere. -/
theorem zeros_apply (j : S1024x1024.Idx) : k0_pay1 (F := Ideal) j = 0 := by
  unfold k0_pay1
  simp only [shapeCast_self]
  show Ideal.ofBits .f32 0x00000000#32 = 0
  exact Ideal.ofBits_zero_f32

/-- One step of the sweep, at (p, q): the accumulator plus the tile's contribution. -/
theorem step_apply (xb : Vec Ideal S1x1024x1024 .f32) (w1b : Vec Ideal S1x1024x512 .f32)
    (w2b : Vec Ideal S1x512x1024 .f32) (acc : Vec Ideal S1024x1024 .f32) (p q : Fin 1024) :
    k0_pay2 (F := Ideal) xb w1b w2b acc (ix2 p q)
      = acc (ix2 p q)
        + ∑ s : Fin 512, max (∑ k : Fin 1024, xb (ix3 (0 : Fin 1) p k) * w1b (ix3 (0 : Fin 1) k s)) 0
            * w2b (ix3 (0 : Fin 1) s q) := by
  unfold k0_pay2
  simp only [shapeCast_self]
  rw [addf_apply]
  refine congrArg (acc (ix2 p q) + ·) ?_
  refine (PlainMatmul.plainMatmul_apply (M := 1024) (K := 512) (N := 1024) none _ _ p q).trans ?_
  refine Finset.sum_congr rfl fun s _ => ?_
  refine congrArg₂ (· * ·) ?_ (shapeCast_1ab_ab_apply w2b _ s q)
  refine congrArg₂ max ?_ Ideal.ofBits_zero_f32
  refine (PlainMatmul.plainMatmul_apply (M := 1024) (K := 1024) (N := 512) none _ _ p s).trans ?_
  refine Finset.sum_congr rfl fun k _ => ?_
  exact congrArg₂ (· * ·) (shapeCast_1ab_ab_apply xb _ p k) (shapeCast_1ab_ab_apply w1b _ k s)

/-- What is copied to the output block when a sweep ends: the accumulator under a leading unit axis. -/
theorem emit_apply (acc : Vec Ideal S1024x1024 .f32) (u : Fin 1) (p q : Fin 1024) :
    k0_pay3 (F := Ideal) acc (ix3 u p q) = acc (ix2 p q) := by
  unfold k0_pay3
  exact shapeCast_ab_1ab_apply acc _ u p q

end Cert.KernelIdeal.Payload

end
-- ==== Proof.Pieces.lean ====
/-
  What each case of the kernel body leaves behind, as a function of what it was given.

  The body runs in one of three ways, by the position `fi` of the grid point in its sweep over the eight hidden
  tiles. At `fi = 0` it first fills the accumulator with zeros and then adds the tile's contribution: the
  accumulator ends at the step applied to the zero block. At `0 < fi < 7` it adds the contribution to the
  accumulator the point before left. At `fi = 7` it does the same and then copies the accumulator to the output
  block. In every case the accumulator is stored whole, so what it holds afterwards is the stored value itself.
-/
import proofs.«180892_j5566277615660_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point of the sweep leaves the step of what the point before left. -/
theorem acc_B (c : Dev nD) (i : grid0.Coords) (a3 : Memref sig .tc .vmem S1x1024x1024 .f32) (h3 : a3.IsWhole)
    (a4 : Memref sig .tc .vmem S1x1024x512 .f32) (h4 : a4.IsWhole) (a5 : Memref sig .tc .vmem S1x512x1024 .f32) (h5 : a5.IsWhole)
    (a6 : Memref sig .tc .vmem S1x1024x1024 .f32) (h6 : a6.IsWhole) (a7 : Memref sig .tc .vmem S1024x1024 .f32) (h7 : a7.IsWhole)
    (hc0 : ¬cond0_0 i) (hc1 : ¬cond0_1 i)
    (x0 : Vec F S1x1024x1024 .f32) (x1 : Vec F S1x1024x512 .f32) (x2 : Vec F S1x512x1024 .f32) (xs : Vec F S1024x1024 .f32) :
    sout0_B_0 c i a3 h3 a4 h4 a5 h5 a6 h6 a7 h7 hc0 hc1 x0 x1 x2 xs = k0_pay2 x0 x1 x2 xs := by
  unfold sout0_B_0
  rw [View.read_writes_eq_canon _ _ _ (scover0_B_0 c i a3 h3 a4 h4 a5 h5 a6 h6 a7 h7 hc0 hc1 x0 x1 x2 xs)]
  unfold kernelRun0_B
  dsimp only
  rw [View.canon_unit_zero hz2]
  simp only [View.readAt_eq_ld, h3.read_unread, h4.read_unread, h5.read_unread, h7.read_unread,
    View.ld_unit_zero (S := S1x1024x1024) hz3, View.ld_unit_zero (S := S1x1024x512) hz3,
    View.ld_unit_zero (S := S1x512x1024) hz3, View.ld_unit_zero (S := S1024x1024) hz2]

/-- The first point of a sweep leaves the step of the zero block: the zeros it stored are what it reads back. -/
theorem acc_A (c : Dev nD) (i : grid0.Coords) (a3 : Memref sig .tc .vmem S1x1024x1024 .f32) (h3 : a3.IsWhole)
    (a4 : Memref sig .tc .vmem S1x1024x512 .f32) (h4 : a4.IsWhole) (a5 : Memref sig .tc .vmem S1x512x1024 .f32) (h5 : a5.IsWhole)
    (a6 : Memref sig .tc .vmem S1x1024x1024 .f32) (h6 : a6.IsWhole) (a7 : Memref sig .tc .vmem S1024x1024 .f32) (h7 : a7.IsWhole)
    (hc0 : cond0_0 i) (hc1 : ¬cond0_1 i)
    (x0 : Vec F S1x1024x1024 .f32) (x1 : Vec F S1x1024x512 .f32) (x2 : Vec F S1x512x1024 .f32) :
    sout0_A_0 c i a3 h3 a4 h4 a5 h5 a6 h6 a7 h7 hc0 hc1 x0 x1 x2 = k0_pay2 x0 x1 x2 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz2, View.readCov_unit_zero (S := S1024x1024) _ hz2]
  simp only [View.readAt_eq_ld, h3.read_unread, h4.read_unread, h5.read_unread, h7.read_unread,
    View.ld_unit_zero (S := S1x1024x1024) hz3, View.ld_unit_zero (S := S1x1024x512) hz3,
    View.ld_unit_zero (S := S1x512x1024) hz3, View.ld_unit_zero (S := S1024x1024) hz2]

/-- The last point of a sweep leaves the same step in the accumulator, -/
theorem acc_C (c : Dev nD) (i : grid0.Coords) (a3 : Memref sig .tc .vmem S1x1024x1024 .f32) (h3 : a3.IsWhole)
    (a4 : Memref sig .tc .vmem S1x1024x512 .f32) (h4 : a4.IsWhole) (a5 : Memref sig .tc .vmem S1x512x1024 .f32) (h5 : a5.IsWhole)
    (a6 : Memref sig .tc .vmem S1x1024x1024 .f32) (h6 : a6.IsWhole) (a7 : Memref sig .tc .vmem S1024x1024 .f32) (h7 : a7.IsWhole)
    (hc0 : ¬cond0_0 i) (hc1 : cond0_1 i)
    (x0 : Vec F S1x1024x1024 .f32) (x1 : Vec F S1x1024x512 .f32) (x2 : Vec F S1x512x1024 .f32) (xs : Vec F S1024x1024 .f32) :
    sout0_C_0 c i a3 h3 a4 h4 a5 h5 a6 h6 a7 h7 hc0 hc1 x0 x1 x2 xs = k0_pay2 x0 x1 x2 xs := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz2]
  simp only [View.readAt_eq_ld, h3.read_unread, h4.read_unread, h5.read_unread, h7.read_unread,
    View.ld_unit_zero (S := S1x1024x1024) hz3, View.ld_unit_zero (S := S1x1024x512) hz3,
    View.ld_unit_zero (S := S1x512x1024) hz3, View.ld_unit_zero (S := S1024x1024) hz2]

/-- and a copy of it, under a leading unit axis, in the output block. -/
theorem out_C (c : Dev nD) (i : grid0.Coords) (a3 : Memref sig .tc .vmem S1x1024x1024 .f32) (h3 : a3.IsWhole)
    (a4 : Memref sig .tc .vmem S1x1024x512 .f32) (h4 : a4.IsWhole) (a5 : Memref sig .tc .vmem S1x512x1024 .f32) (h5 : a5.IsWhole)
    (a6 : Memref sig .tc .vmem S1x1024x1024 .f32) (h6 : a6.IsWhole) (a7 : Memref sig .tc .vmem S1024x1024 .f32) (h7 : a7.IsWhole)
    (hc0 : ¬cond0_0 i) (hc1 : cond0_1 i)
    (x0 : Vec F S1x1024x1024 .f32) (x1 : Vec F S1x1024x512 .f32) (x2 : Vec F S1x512x1024 .f32) (xs : Vec F S1024x1024 .f32) :
    out0_C_3 c i a3 h3 a4 h4 a5 h5 a6 h6 a7 h7 hc0 hc1 x0 x1 x2 xs = k0_pay3 (k0_pay2 x0 x1 x2 xs) := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz3, View.readCov_unit_zero (S := S1024x1024) _ hz2]
  simp only [View.readAt_eq_ld, h3.read_unread, h4.read_unread, h5.read_unread, h7.read_unread,
    View.ld_unit_zero (S := S1x1024x1024) hz3, View.ld_unit_zero (S := S1x1024x512) hz3,
    View.ld_unit_zero (S := S1x512x1024) hz3, View.ld_unit_zero (S := S1024x1024) hz2]

end Cert.KernelIdeal.Pieces

end
-- ==== Proof.Sweep.lean ====
/-
  The sweep over the hidden tiles, point by point.

  Point `n` of the grid is step `n % 8` of a sweep for one expert and one block of 1024 tokens. By induction on the
  point, the accumulator after point `n` holds, at (p, q), the contributions of the tiles `0 … n % 8` to the MLP's
  output at (expert, token, q), added one after the other onto zero (`acc_eq`): the first point of a sweep starts from
  the zero block, every later point adds its tile's contribution to what the point before left, and the expert and
  the token block do not change inside a sweep. After the last point of a sweep that is all eight tiles, the whole
  sum over the 4096 hidden units; this is what the point copies to the output block (`out_eq`).
-/
import proofs.«180892_j5566277615660_2_alg».proof.Proof.Gen.KernelIdeal.Frame
import proofs.«180892_j5566277615660_2_alg».proof.Proof.Spec
import proofs.«180892_j5566277615660_2_alg».proof.Proof.Payload
import proofs.«180892_j5566277615660_2_alg».proof.Proof.Pieces
import proofs.«180892_j5566277615660_2_alg».proof.Proof.Blocks

noncomputable section

open scoped BigOperators

namespace Cert.KernelIdeal.Sweep

open Cert.KernelIdeal Cert.KernelIdeal.Gen Idealize.ShloMosaic Idealize.ShloMosaic.TcCoe Idealize.SL.Sem
open Idealize.ShloMosaic.ValueIdx Cert.KernelIdeal.Blocks

variable (m : (ℓ : Loc nD τ sig) → Buf (Elt Ideal) ℓ)

/-- The reshaped tokens and the two weight arrays, as the region finds them. -/
abbrev X (c : Dev nD) : ExpertMlp.TX.Idx → EReal := V m c main_v0
abbrev W1 (c : Dev nD) : ExpertMlp.TW1.Idx → EReal := V m c main_arg2
abbrev W2 (c : Dev nD) : ExpertMlp.TW2.Idx → EReal := V m c main_arg3

/-- The three input blocks of point `t`, at their literal shapes. -/
abbrev xb (c : Dev nD) (t : Fin cfg0.N) : Vec Ideal S1x1024x1024 .f32 := iblk m c 0 t
abbrev w1b (c : Dev nD) (t : Fin cfg0.N) : Vec Ideal S1x1024x512 .f32 := iblk m c 1 t
abbrev w2b (c : Dev nD) (t : Fin cfg0.N) : Vec Ideal S1x512x1024 .f32 := iblk m c 2 t

/-- The blocks of point `t` give, at (p, q), the contribution of the point's hidden tile to the output at the
    point's expert, token `p` of its token block, feature `q`. -/
theorem contrib (c : Dev nD) (t : Fin cfg0.N) (p q : Fin 1024) :
    (∑ s : Fin 512, max (∑ k : Fin 1024, xb m c t (ix3 (0 : Fin 1) p k) * w1b m c t (ix3 (0 : Fin 1) k s)) 0
        * w2b m c t (ix3 (0 : Fin 1) s q))
      = ExpertMlp.tile (X m c) (W1 m c) (W2 m c) (expertOf t.val) (tokenOf t.val p) q (t.val % 8) := by
  unfold ExpertMlp.tile ExpertMlp.hid
  refine Finset.sum_congr rfl fun s _ => ?_
  refine congrArg₂ (· * ·) (congrArg₂ max (Finset.sum_congr rfl fun k _ => ?_) rfl) (w2_at m c t s q)
  exact congrArg₂ (· * ·) (tokens_at m c t p k) (w1_at m c t k s)

/-- One step at point `t` on an accumulator `prev`: `prev` plus the point's contribution. -/
theorem step_at (c : Dev nD) (t : Fin cfg0.N) (prev : Vec Ideal S1024x1024 .f32) (p q : Fin 1024) :
    k0_pay2 (F := Ideal) (xb m c t) (w1b m c t) (w2b m c t) prev (ix2 p q)
      = prev (ix2 p q) + ExpertMlp.tile (X m c) (W1 m c) (W2 m c) (expertOf t.val) (tokenOf t.val p) q (t.val % 8) :=
  (Payload.step_apply (xb m c t) (w1b m c t) (w2b m c t) prev p q).trans (congrArg (prev (ix2 p q) + ·) (contrib m c t p q))

/-- The accumulator after point `t`: the contributions of the tiles up to the point's, added in order onto zero. -/
theorem acc_eq (c : Dev nD) : ∀ (n : ℕ) (t : Fin cfg0.N), t.val = n → ∀ p q : Fin 1024,
    (outsAt0 m c t.val t.isLt).2 (ix2 p q)
      = SumSplit.accUpTo (ExpertMlp.tile (X m c) (W1 m c) (W2 m c) (expertOf t.val) (tokenOf t.val p) q) (t.val % 8 + 1) := by
  have first : ∀ (t : Fin cfg0.N), t.val % 8 = 0 → ∀ p q : Fin 1024,
      (outsAt0 m c t.val t.isLt).2 (ix2 p q)
        = SumSplit.accUpTo (ExpertMlp.tile (X m c) (W1 m c) (W2 m c) (expertOf t.val) (tokenOf t.val p) q) (t.val % 8 + 1) := by
    intro t h0 p q
    have h1 : ¬ t.val % 8 = 7 := by omega
    rw [outsAt0_A m c t h0 h1]
    dsimp only
    refine (congrFun (Pieces.acc_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p q)).trans ?_
    refine (step_at m c t _ p q).trans ?_
    rw [Payload.zeros_apply, h0]
    rfl
  intro n
  induction n with
  | zero => exact fun t ht p q => first t (by omega) p q
  | succ n ih =>
    intro t ht p q
    have hN : cfg0.N = 256 := N_0
    have hlt := t.isLt
    by_cases h0 : t.val % 8 = 0
    · exact first t h0 p q
    · have hprev := ih ⟨t.val - 1, by omega⟩ (by show t.val - 1 = n; omega) p q
      have he : expertOf (t.val - 1) = expertOf t.val := Fin.ext (by show (t.val - 1) / 32 % 8 = t.val / 32 % 8; omega)
      have hk : tokenOf (t.val - 1) p = tokenOf t.val p :=
        Fin.ext (by show 1024 * ((t.val - 1) / 8 % 4) + p.val = 1024 * (t.val / 8 % 4) + p.val; omega)
      have hf : (t.val - 1) % 8 + 1 = t.val % 8 := by omega
      have hprev' : (outsAt0 m c (t.val - 1) (Nat.lt_of_le_of_lt (Nat.sub_le _ _) t.isLt)).2 (ix2 p q)
          = SumSplit.accUpTo (ExpertMlp.tile (X m c) (W1 m c) (W2 m c) (expertOf t.val) (tokenOf t.val p) q) (t.val % 8) := by
        rw [← he, ← hk, ← hf]; exact hprev
      by_cases h1 : t.val % 8 = 7
      · rw [outsAt0_C m c t h0 h1]
        dsimp only
        refine (congrFun (Pieces.acc_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _) (ix2 p q)).trans ?_
        refine (step_at m c t _ p q).trans ?_
        rw [hprev']
        rfl
      · rw [outsAt0_B m c t h0 h1]
        dsimp only
        refine (congrFun (Pieces.acc_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) _) (ix2 p q)).trans ?_
        refine (step_at m c t _ p q).trans ?_
        rw [hprev']
        rfl

/-- What the last point of a sweep copies to the output block: the MLP's output for the point's expert and tokens. -/
theorem out_eq (c : Dev nD) (t : Fin cfg0.N) (h7 : t.val % 8 = 7) (u : Fin 1) (p q : Fin 1024) :
    (outsAt0 m c t.val t.isLt).1 (ix3 u p q)
      = ExpertMlp.mlp (X m c) (W1 m c) (W2 m c) (ix3 (expertOf t.val) (tokenOf t.val p) q) := by
  have h0 : ¬ t.val % 8 = 0 := by omega
  have hacc := acc_eq m c t.val t rfl p q
  rw [outsAt0_C m c t h0 h7] at hacc ⊢
  dsimp only at hacc ⊢
  refine (congrFun (Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) _) (ix3 u p q)).trans ?_
  refine (Payload.emit_apply _ u p q).trans ?_
  refine ((congrFun (Pieces.acc_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) _) (ix2 p q)).symm.trans hacc).trans ?_
  rw [h7]
  exact ExpertMlp.acc_eight _ _ _ _ _ _

end Cert.KernelIdeal.Sweep

end
-- ==== Proof.Result.lean ====
/-
  The kernel's result array.

  The last point of each sweep (the points `n` with `n % 8 = 7`) writes its output block back: the block of expert
  `n / 32`, tokens `1024 * (n / 8 % 4) + p`. These 32 blocks tile the (expert, token, feature) array — the token
  (e, c) lies in the block of the point `32 * e + 8 * (c / 1024) + 7` — and each holds the MLP's output for its
  tokens, so after the run the array is the MLP of the reshaped tokens and the two weight arrays. The host operation
  after the region reshapes it to (token, feature).
-/
import proofs.«180892_j5566277615660_2_alg».proof.Proof.Gen.KernelIdeal.Frame
import proofs.«180892_j5566277615660_2_alg».proof.Proof.Spec
import proofs.«180892_j5566277615660_2_alg».proof.Proof.Blocks
import proofs.«180892_j5566277615660_2_alg».proof.Proof.Sweep
import Idealize.ShloMosaic.Lib.Pipeline.Value
import Idealize.ShloMosaic.Lib.StableHlo.Run
import Idealize.ShloMosaic.Lib.Tactic

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo Cert.KernelIdeal.Blocks Cert.KernelIdeal.Sweep
open Idealize.ShloMosaic.Pipeline (Dat)

variable (m : (ℓ : Loc nD τ sig) → Buf (Elt Ideal) ℓ) (ρ : Dev nD → PrngReg)

/-- What the last point of a sweep writes back is its block of the MLP's output. -/
theorem flushed_eq (c : Dev nD) (t : Fin cfg0.N) (hf : (cfg0.win 3).flush t = true) :
    (dats m 0 c).flushed 3 t
      = ((cfg0.win 3).blk t).view.read (Elt Ideal) (ExpertMlp.mlp (X m c) (W1 m c) (W2 m c)) := by
  have h7 : t.val % 8 = 7 := (flush0_3 t).mp hf
  show (cfg0.win 3).cut (grid0.coords t) ((dats m 0 c).after 3 t) = _
  rw [after0_3]
  funext y
  rw [View.read_apply]
  obtain ⟨u, p, q, rfl⟩ : ∃ (u : Fin 1) (p q : Fin 1024), y = ix3 u p q := ⟨y 0, y 1, y 2, eq_ix3 y⟩
  show (outsAt0 m c t.val t.isLt).1 (ix3 u p q) = ExpertMlp.mlp (X m c) (W1 m c) (W2 m c) _
  rw [Sweep.out_eq m c t h7 u p q]
  refine congrArg (ExpertMlp.mlp (X m c) (W1 m c) (W2 m c)) (funext fun a => Fin.ext ?_)
  have hu : u.val = 0 := by omega
  match a with
  | ⟨0, _⟩ => show t.val / 32 % 8 = win0_3.index t 0 * 1 + 1 * u.val; rw [(index3 t).1]; omega
  | ⟨1, _⟩ => show 1024 * (t.val / 8 % 4) + p.val = win0_3.index t 1 * 1024 + 1 * p.val; rw [(index3 t).2.1]; omega
  | ⟨2, _⟩ => show q.val = win0_3.index t 2 * 1024 + 1 * q.val; rw [(index3 t).2.2]; omega

/-- An index of the output array is in point `t`'s block iff each coordinate is in the block's range on its axis. -/
theorem mem_blk (t : Fin cfg0.N) (i : S8x4096x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v1).slice (win0_3.rect t)).set ↔ _
  rw [View.set_slice_whole, Rect.mem_set_unit]
  exact Iff.rfl

/-- Every index of the output array is in the block some sweep's last point writes back. -/
theorem cover (i : S8x4096x1024.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 1024 := (i 2).isLt
  have hN : cfg0.N = 256 := N_0
  have hn : 32 * (i 0).val + 8 * ((i 1).val / 1024) + 7 < cfg0.N := by omega
  have e := index3 ⟨32 * (i 0).val + 8 * ((i 1).val / 1024) + 7, hn⟩
  have e0 : win0_3.index ⟨32 * (i 0).val + 8 * ((i 1).val / 1024) + 7, hn⟩ 0
      = (32 * (i 0).val + 8 * ((i 1).val / 1024) + 7) / 32 % 8 := e.1
  have e1 : win0_3.index ⟨32 * (i 0).val + 8 * ((i 1).val / 1024) + 7, hn⟩ 1
      = (32 * (i 0).val + 8 * ((i 1).val / 1024) + 7) / 8 % 4 := e.2.1
  have e2 : win0_3.index ⟨32 * (i 0).val + 8 * ((i 1).val / 1024) + 7, hn⟩ 2 = 0 := e.2.2
  refine ⟨⟨32 * (i 0).val + 8 * ((i 1).val / 1024) + 7, hn⟩, (flush0_3 _).mpr (by show (32 * (i 0).val + 8 * ((i 1).val / 1024) + 7) % 8 = 7; omega), ?_⟩
  rw [mem_blk]
  intro a
  match a with
  | ⟨0, _⟩ =>
    show win0_3.index _ 0 * 1 ≤ (i 0).val ∧ (i 0).val < win0_3.index _ 0 * 1 + 1
    rw [e0]; omega
  | ⟨1, _⟩ =>
    show win0_3.index _ 1 * 1024 ≤ (i 1).val ∧ (i 1).val < win0_3.index _ 1 * 1024 + 1024
    rw [e1]; omega
  | ⟨2, _⟩ =>
    show win0_3.index _ 2 * 1024 ≤ (i 2).val ∧ (i 2).val < win0_3.index _ 2 * 1024 + 1024
    rw [e2]; omega

/-- So the output array ends at the MLP of the reshaped tokens and the weights. -/
theorem final (c : Dev nD) : (dats m 0 c).arrAt 3 cfg0.N = ExpertMlp.mlp (X m c) (W1 m c) (W2 m c) :=
  (dats m 0 c).arrAt_eq_of_cover 3 (ExpertMlp.mlp (X m c) (W1 m c) (W2 m c)) (flushed_eq m c) cover

/-- The host reshape after the region turns it into the (token, feature) result. -/
theorem tail_eq (c : Dev nD) :
    Pipeline.afterTail₀ cfgs (dats m) 0 (V0 m) [hostOps1] c main_v2
      = shapeCast S32768x1024 (ExpertMlp.mlp (X m c) (W1 m c) (W2 m c)) shapeCasts_S8x4096x1024_S32768x1024 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v1)
      = ExpertMlp.mlp (X m c) (W1 m c) (W2 m c) :=
    (Pipeline.withArrays_arr spec0 launch0.win.arr_inj c _ _ 3).trans (final m c)
  rw [e]
  rfl

/-- The kernel's result as a function of the argument arrays: the tokens reshaped to (expert, token, feature), the
    MLP, and the reshape back. -/
def value (c : Dev nD) : Buf (Elt Ideal) ((c.tc : Thread nD τ).loc main_v2) :=
  shapeCast S32768x1024
    (ExpertMlp.mlp
      (shapeCast S8x4096x1024 (m ((c.tc : Thread nD τ).loc main_arg0)) shapeCasts_S32768x1024_S8x4096x1024)
      (m ((c.tc : Thread nD τ).loc main_arg2)) (m ((c.tc : Thread nD τ).loc main_arg3)))
    shapeCasts_S8x4096x1024_S32768x1024

/-- The arrays the region finds are the reshaped first argument and the two weight arguments. -/
theorem value_eq (c : Dev nD) :
    shapeCast S32768x1024 (ExpertMlp.mlp (X m c) (W1 m c) (W2 m c)) shapeCasts_S8x4096x1024_S32768x1024 = value m c := by
  unfold value
  have e0 : X m c = shapeCast S8x4096x1024 (m ((c.tc : Thread nD τ).loc main_arg0)) shapeCasts_S32768x1024_S8x4096x1024 :=
    tokens_array m c
  have e1 : W1 m c = m ((c.tc : Thread nD τ).loc main_arg2) := V_main_arg2 m c
  have e2 : W2 m c = m ((c.tc : Thread nD τ).loc main_arg3) := V_main_arg3 m c
  rw [e0, e1, e2]

/-- The run, read: the result at `value`, the arguments unchanged. -/
theorem run : θ_run defs (onTc (τ := τ) (main (F := Ideal))) ⟨m, fun _ => 0, ρ⟩ fun r => ∀ c : Dev nD,
      r.2.mem ((c.tc : Thread nD τ).loc main_v2) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v2 (Pipeline.mem_restRefs_of main_v2 (by decide) (by decide))).trans (tail_eq m c)).trans (value_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.Result

end
-- ==== Proof.lean ====
/-
  The claim: the Pallas expert MLP and its jnp reference compute the same function on the extended reals.

  Both programs reshape the tokens to (expert, token, feature), apply to each expert's tokens
  y = max (x · W1) 0 · W2 with that expert's weights, and reshape back. The reference does it with two batched
  products over the whole arrays (Proof/RefSide.lean). The kernel walks a grid of (expert, token block, hidden tile):
  it accumulates, tile by tile of 512 hidden units, the products of the activations with the second weight matrix,
  and writes a token block out after the eighth tile (Proof/Payload.lean: one body run; Proof/Pieces.lean: what each
  of its three cases leaves; Proof/Blocks.lean: where the blocks sit; Proof/Sweep.lean: the induction over the
  grid; Proof/Result.lean: the output array and the final reshape). The two meet in `ExpertMlp.mlp`
  (Proof/Spec.lean): a sum over 4096 hidden units is the eight partial sums over 512 added in order, by
  commutativity and associativity of addition alone, so the inputs' finiteness is never used. The changes of float
  format inside the kernel are the identity on the extended reals.

  The frames of the two kernel programs are the generated frame runs; the reference's frame is its generated run;
  the idealization rewrote nothing, so `preserves` is trivial.
-/
import proofs.«180892_j5566277615660_2_alg».proof.Defs
import proofs.«180892_j5566277615660_2_alg».proof.Proof.Gen.Kernel
import proofs.«180892_j5566277615660_2_alg».proof.Proof.Gen.Kernel.Skeleton
import proofs.«180892_j5566277615660_2_alg».proof.Proof.Gen.Kernel.Launch
import proofs.«180892_j5566277615660_2_alg».proof.Proof.Gen.Kernel.Points
import proofs.«180892_j5566277615660_2_alg».proof.Proof.Gen.Kernel.Frame
import proofs.«180892_j5566277615660_2_alg».proof.Proof.Gen.KernelIdeal
import proofs.«180892_j5566277615660_2_alg».proof.Proof.Gen.KernelIdeal.Skeleton
import proofs.«180892_j5566277615660_2_alg».proof.Proof.Gen.KernelIdeal.Launch
import proofs.«180892_j5566277615660_2_alg».proof.Proof.Gen.KernelIdeal.Points
import proofs.«180892_j5566277615660_2_alg».proof.Proof.Gen.KernelIdeal.Frame
import proofs.«180892_j5566277615660_2_alg».proof.Proof.Gen.ReferenceIdeal
import proofs.«180892_j5566277615660_2_alg».proof.Proof.Gen.ReferenceIdeal.Run
import proofs.«180892_j5566277615660_2_alg».proof.Proof.Gen.ReferenceIdeal.Read
import proofs.«180892_j5566277615660_2_alg».proof.Proof.Gen.Pre_finite_inputs
import proofs.«180892_j5566277615660_2_alg».proof.Proof.RefSide
import proofs.«180892_j5566277615660_2_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reshape of the MLP of the reshaped tokens and the weights, of arguments that
    agree. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.2.1, (hagree c).2.2.2]
  exact (Cert.ReferenceIdeal.Read.val_main_v4_eq (F := Ideal) _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
